-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x128 : Shape := ⟨2, ![32768, 128]⟩
abbrev S1024x128 : Shape := ⟨2, ![1024, 128]⟩
abbrev S1x1024 : Shape := ⟨2, ![1, 1024]⟩
abbrev S10x1024 : Shape := ⟨2, ![10, 1024]⟩
abbrev S10 : Shape := ⟨1, ![10]⟩
abbrev S_ : Shape := ⟨0, ![]⟩

class Facts : Prop where
  bcast_S_S32768x128 : S_.BroadcastsInDim S32768x128 (![] : Fin 0 → Fin S32768x128.rank)
  reducesTo_S32768x128_S_d0_1 : S32768x128.ReducesTo [0, 1] S_
  h_S_ : 0 < S_.numel
  bcast_S_S1024x128 : S_.BroadcastsInDim S1024x128 (![] : Fin 0 → Fin S1024x128.rank)
  reducesTo_S1024x128_S_d0_1 : S1024x128.ReducesTo [0, 1] S_
  bcast_S_S1x1024 : S_.BroadcastsInDim S1x1024 (![] : Fin 0 → Fin S1x1024.rank)
  reducesTo_S1x1024_S_d0_1 : S1x1024.ReducesTo [0, 1] S_
  bcast_S_S10x1024 : S_.BroadcastsInDim S10x1024 (![] : Fin 0 → Fin S10x1024.rank)
  reducesTo_S10x1024_S_d0_1 : S10x1024.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg4 : FVec F S10 .f32) (main_v13 : IVec S_ 1) (main_v16 : IVec S10x1024 1) : IVec S_ 1 :=
  let main_c_5 : IVec S_ 1 := constantI S_ 1 1#1
  let main_v17 : IVec S_ 1 := (fun x v => Host.reduce IntOp.andi x v reducesTo_S10x1024_S_d0_1 h_S_) main_v16 main_c_5
  let main_v18 : IVec S_ 1 := andi main_v13 main_v17
  let main_v19 : FVec F S10 .f32 := Host.absf main_arg4
  let main_cst_6 : FVec F S_ .f32 := constant S_ .f32 0x7F800000#32
  let main_v20 : FVec F S10 .f32 := broadcastInDim S10 ![] bcast_S_S10 main_cst_6
  let main_v21 : IVec S10 1 := cmpf .olt main_v19 main_v20
  let main_c_7 : IVec S_ 1 := constantI S_ 1 1#1
  let main_v22 : IVec S_ 1 := (fun x v => Host.reduce IntOp.andi x v reducesTo_S10_S_d0 h_S_) main_v21 main_c_7
  let main_v23 : IVec S_ 1 := andi main_v18 main_v22
  main_v23

def fn {F : FTy → Type} [FloatOps F] (main_arg0 : FVec F S32768x128 .f32) (main_arg1 : FVec F S1024x128 .f32) (main_arg2 : FVec F S1x1024 .f32) (main_arg3 : FVec F S10x1024 .f32) (main_arg4 : FVec F S10 .f32) : IVec S_ 1 :=
  let main_v0 : FVec F S32768x128 .f32 := Host.absf main_arg0
  let main_cst : FVec F S_ .f32 := constant S_ .f32 0x7F800000#32
  let main_v1 : FVec F S32768x128 .f32 := broadcastInDim S32768x128 ![] bcast_S_S32768x128 main_cst
  let main_v2 : IVec S32768x128 1 := cmpf .olt main_v0 main_v1
  let main_c : IVec S_ 1 := constantI S_ 1 1#1
  let main_v3 : IVec S_ 1 := (fun x v => Host.reduce IntOp.andi x v reducesTo_S32768x128_S_d0_1 h_S_) main_v2 main_c
  let main_v4 : FVec F S1024x128 .f32 := Host.absf main_arg1
  let main_cst_0 : FVec F S_ .f32 := constant S_ .f32 0x7F800000#32
  let main_v5 : FVec F S1024x128 .f32 := broadcastInDim S1024x128 ![] bcast_S_S1024x128 main_cst_0
  let main_v6 : IVec S1024x128 1 := cmpf .olt main_v4 main_v5
  let main_c_1 : IVec S_ 1 := constantI S_ 1 1#1
  let main_v7 : IVec S_ 1 := (fun x v => Host.reduce IntOp.andi x v reducesTo_S1024x128_S_d0_1 h_S_) main_v6 main_c_1
  let main_v8 : IVec S_ 1 := andi main_v3 main_v7
  let main_v9 : FVec F S1x1024 .f32 := Host.absf main_arg2
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S10x1024 .f32 := Host.absf main_arg3
  let main_cst_4 : FVec F S_ .f32 := constant S_ .f32 0x7F800000#32
  let main_v15 : FVec F S10x1024 .f32 := broadcastInDim S10x1024 ![] bcast_S_S10x1024 main_cst_4
  let main_v16 : IVec S10x1024 1 := cmpf .olt main_v14 main_v15
  fn_part1 (F := F) main_arg4 main_v13 main_v16
-- ==== Kernel.lean ====
abbrev S32768x128 : Shape := ⟨2, ![32768, 128]⟩
abbrev S1024x128 : Shape := ⟨2, ![1024, 128]⟩
abbrev S1x1024 : Shape := ⟨2, ![1, 1024]⟩
abbrev S10x1024 : Shape := ⟨2, ![10, 1024]⟩
abbrev S10 : Shape := ⟨1, ![10]⟩
abbrev S32768x10 : Shape := ⟨2, ![32768, 10]⟩
abbrev S512x128 : Shape := ⟨2, ![512, 128]⟩
abbrev S512x10 : Shape := ⟨2, ![512, 10]⟩
abbrev S512 : Shape := ⟨1, ![512]⟩
abbrev S512x1 : Shape := ⟨2, ![512, 1]⟩
abbrev S1024 : Shape := ⟨1, ![1024]⟩
abbrev S512x1024 : Shape := ⟨2, ![512, 1024]⟩
abbrev S1x10 : Shape := ⟨2, ![1, 10]⟩

abbrev nBuf : Space → Nat
  | .hbm => 6
  | .vmem => 8
  | .smem => 0
  | _ => 0

abbrev bufTy : (tb : Table) → Fin (tcTables nBuf tb) → BufTy
  | .hbm, ⟨0, _⟩ => ⟨S32768x128, .f32⟩
  | .hbm, ⟨1, _⟩ => ⟨S1024x128, .f32⟩
  | .hbm, ⟨2, _⟩ => ⟨S1x1024, .f32⟩
  | .hbm, ⟨3, _⟩ => ⟨S10x1024, .f32⟩
  | .hbm, ⟨4, _⟩ => ⟨S10, .f32⟩
  | .hbm, ⟨5, _⟩ => ⟨S32768x10, .f32⟩
  | .local _ .vmem, ⟨0, _⟩ => ⟨S512x128, .f32⟩
  | .local _ .vmem, ⟨1, _⟩ => ⟨S512x128, .f32⟩
  | .local _ .vmem, ⟨2, _⟩ => ⟨S1024x128, .f32⟩
  | .local _ .vmem, ⟨3, _⟩ => ⟨S1x1024, .f32⟩
  | .local _ .vmem, ⟨4, _⟩ => ⟨S10x1024, .f32⟩
  | .local _ .vmem, ⟨5, _⟩ => ⟨S10, .f32⟩
  | .local _ .vmem, ⟨6, _⟩ => ⟨S512x10, .f32⟩
  | .local _ .vmem, ⟨7, _⟩ => ⟨S512x10, .f32⟩
  | _, _ => ⟨S32768x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S10x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S10 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x10 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  inb_S512x128_S512x128_0_0 : ∀ a, (![0, 0] : Fin 2 → Nat) a + S512x128.size a ≤ S512x128.size a
  h_S512x128 : 0 < S512x128.numel
  inb_S1024x128_S1024x128_0_0 : ∀ a, (![0, 0] : Fin 2 → Nat) a + S1024x128.size a ≤ S1024x128.size a
  h_S1024x128 : 0 < S1024x128.numel
  reduces_S512x128_S512 : S512x128.Reduces [1] S512
  shapeCasts_S512_S512x1 : S512.ShapeCasts S512x1
  reduces_S1024x128_S1024 : S1024x128.Reduces [1] S1024
  shapeCasts_S1024_S1x1024 : S1024.ShapeCasts S1x1024
  bitsLt_bf16_f32 : FTy.bits .bf16 < FTy.bits .f32
  broadcasts_S512x1_S512x1024 : S512x1.Broadcasts S512x1024
  broadcasts_S1x1024_S512x1024 : S1x1024.Broadcasts S512x1024
  inb_S1x1024_S1x1024_0_0 : ∀ a, (![0, 0] : Fin 2 → Nat) a + S1x1024.size a ≤ S1x1024.size a
  h_S1x1024 : 0 < S1x1024.numel
  inb_S10x1024_S10x1024_0_0 : ∀ a, (![0, 0] : Fin 2 → Nat) a + S10x1024.size a ≤ S10x1024.size a
  h_S10x1024 : 0 < S10x1024.numel
  inb_S10_S10_0 : ∀ a, (![0] : Fin 1 → Nat) a + S10.size a ≤ S10.size a
  h_S10 : 0 < S10.numel
  shapeCasts_S10_S1x10 : S10.ShapeCasts S1x10
  broadcasts_S1x10_S512x10 : S1x10.Broadcasts S512x10
  inb_S512x10_S512x10_0_0 : ∀ a, (![0, 0] : Fin 2 → Nat) a + S512x10.size a ≤ S512x10.size a
  h_S512x10 : 0 < S512x10.numel
  dot_S512x128_S1024x128_S512x1024_1_1_0_0_n_n_wf : DotDims.WF S512x128 S1024x128 S512x1024 [1] [1] [0] [0] [] []
  dot_S512x1024_S10x1024_S512x10_1_1_0_0_n_n_wf : DotDims.WF S512x1024 S10x1024 S512x10 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S32768x128.size a
  hwx0_0 : ∀ i : grid0.Coords, EltTy.bits .f32 = 32 ∨ (Rect.block (s := S32768x128) S512x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S1024x128.size a
  hwx0_1 : ∀ i : grid0.Coords, EltTy.bits .f32 = 32 ∨ (Rect.block (s := S1024x128) S1024x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S10x1024.size a ≤ S10x1024.size a
  hwx0_3 : ∀ i : grid0.Coords, EltTy.bits .f32 = 32 ∨ (Rect.block (s := S10x1024) S10x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S10.size a ≤ S10.size a
  hwx0_4 : ∀ i : grid0.Coords, EltTy.bits .f32 = 32 ∨ (Rect.block (s := S10) S10.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x10.size a ≤ S32768x10.size a
  hwx0_5 : ∀ i : grid0.Coords, EltTy.bits .f32 = 32 ∨ (Rect.block (s := S32768x10) S512x10.size (cc0_transform_5 i) (hinb0_5 i)).WholeWords (EltTy.packing .f32)

variable [Facts₀]

def dot_S512x128_S1024x128_S512x1024_1_1_0_0_n_n : DotDims S512x128 S1024x128 S512x1024 where
  lhsContracting := [1]
  rhsContracting := [1]
  lhsNonContracting := [0]
  rhsNonContracting := [0]
  lhsBatch := []
  rhsBatch := []
  wf := dot_S512x128_S1024x128_S512x1024_1_1_0_0_n_n_wf
def dot_S512x1024_S10x1024_S512x10_1_1_0_0_n_n : DotDims S512x1024 S10x1024 S512x10 where
  lhsContracting := [1]
  rhsContracting := [1]
  lhsNonContracting := [0]
  rhsNonContracting := [0]
  lhsBatch := []
  rhsBatch := []
  wf := dot_S512x1024_S10x1024_S512x10_1_1_0_0_n_n_wf

abbrev win0_0 : Pipeline.Window sig grid0 :=
  Pipeline.Window.ofSpec (Memref.whole main_arg0) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S10x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S10.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S512x10.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S32768x128 : Shape := ⟨2, ![32768, 128]⟩
abbrev S1024x128 : Shape := ⟨2, ![1024, 128]⟩
abbrev S1x1024 : Shape := ⟨2, ![1, 1024]⟩
abbrev S10x1024 : Shape := ⟨2, ![10, 1024]⟩
abbrev S10 : Shape := ⟨1, ![10]⟩
abbrev S_ : Shape := ⟨0, ![]⟩
abbrev S32768 : Shape := ⟨1, ![32768]⟩
abbrev S32768x1 : Shape := ⟨2, ![32768, 1]⟩
abbrev S1024 : Shape := ⟨1, ![1024]⟩
abbrev S32768x1024 : Shape := ⟨2, ![32768, 1024]⟩
abbrev S32768x10 : Shape := ⟨2, ![32768, 10]⟩
abbrev S1x10 : Shape := ⟨2, ![1, 10]⟩

abbrev nBuf : Space → Nat
  | .hbm => 33
  | .vmem => 0
  | .smem => 0
  | _ => 0

abbrev bufTy : (tb : Table) → Fin (tcTables nBuf tb) → BufTy
  | .hbm, ⟨0, _⟩ => ⟨S32768x128, .f32⟩
  | .hbm, ⟨1, _⟩ => ⟨S1024x128, .f32⟩
  | .hbm, ⟨2, _⟩ => ⟨S1x1024, .f32⟩
  | .hbm, ⟨3, _⟩ => ⟨S10x1024, .f32⟩
  | .hbm, ⟨4, _⟩ => ⟨S10, .f32⟩
  | .hbm, ⟨5, _⟩ => ⟨S32768x128, .f32⟩
  | .hbm, ⟨6, _⟩ => ⟨S_, .f32⟩
  | .hbm, ⟨7, _⟩ => ⟨S32768, .f32⟩
  | .hbm, ⟨8, _⟩ => ⟨S32768x1, .f32⟩
  | .hbm, ⟨9, _⟩ => ⟨S1024x128, .f32⟩
  | .hbm, ⟨10, _⟩ => ⟨S_, .f32⟩
  | .hbm, ⟨11, _⟩ => ⟨S1024, .f32⟩
  | .hbm, ⟨12, _⟩ => ⟨S1x1024, .f32⟩
  | .hbm, ⟨13, _⟩ => ⟨S32768x1024, .f32⟩
  | .hbm, ⟨14, _⟩ => ⟨S32768x1024, .f32⟩
  | .hbm, ⟨15, _⟩ => ⟨S32768x1024, .f32⟩
  | .hbm, ⟨16, _⟩ => ⟨S32768x1024, .f32⟩
  | .hbm, ⟨17, _⟩ => ⟨S_, .f32⟩
  | .hbm, ⟨18, _⟩ => ⟨S32768x1024, .f32⟩
  | .hbm, ⟨19, _⟩ => ⟨S32768x1024, .f32⟩
  | .hbm, ⟨20, _⟩ => ⟨S32768x1024, .f32⟩
  | .hbm, ⟨21, _⟩ => ⟨S_, .f32⟩
  | .hbm, ⟨22, _⟩ => ⟨S32768x1024, .f32⟩
  | .hbm, ⟨23, _⟩ => ⟨S32768x1024, .f32⟩
  | .hbm, ⟨24, _⟩ => ⟨S32768x1024, .f32⟩
  | .hbm, ⟨25, _⟩ => ⟨S1x1024, .f32⟩
  | .hbm, ⟨26, _⟩ => ⟨S32768x1024, .f32⟩
  | .hbm, ⟨27, _⟩ => ⟨S32768x1024, .f32⟩
  | .hbm, ⟨28, _⟩ => ⟨S32768x1024, .f32⟩
  | .hbm, ⟨29, _⟩ => ⟨S32768x10, .f32⟩
  | .hbm, ⟨30, _⟩ => ⟨S1x10, .f32⟩
  | .hbm, ⟨31, _⟩ => ⟨S32768x10, .f32⟩
  | .hbm, ⟨32, _⟩ => ⟨S32768x10, .f32⟩
  | _, _ => ⟨S32768x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]

class Facts₀ : Prop where
  reducesTo_S32768x128_S32768_d1 : S32768x128.ReducesTo [1] S32768
  h_S_ : 0 < S_.numel
  bcast_S32768_S32768x1_0 : S32768.BroadcastsInDim S32768x1 (![0] : Fin 1 → Fin S32768x1.rank)
  reducesTo_S1024x128_S1024_d1 : S1024x128.ReducesTo [1] S1024
  bcast_S1024_S1x1024_1 : S1024.BroadcastsInDim S1x1024 (![1] : Fin 1 → Fin S1x1024.rank)
  bcast_S32768x1_S32768x1024_0_1 : S32768x1.BroadcastsInDim S32768x1024 (![0, 1] : Fin 2 → Fin S32768x1024.rank)
  bcast_S1x1024_S32768x1024_0_1 : S1x1024.BroadcastsInDim S32768x1024 (![0, 1] : Fin 2 → Fin S32768x1024.rank)
  bcast_S_S32768x1024 : S_.BroadcastsInDim S32768x1024 (![] : Fin 0 → Fin S32768x1024.rank)
  bcast_S10_S1x10_1 : S10.BroadcastsInDim S1x10 (![1] : Fin 1 → Fin S1x10.rank)
  bcast_S1x10_S32768x10_0_1 : S1x10.BroadcastsInDim S32768x10 (![0, 1] : Fin 2 → Fin S32768x10.rank)
  dot_S32768x128_S1024x128_S32768x1024_1_1_0_0_n_n_wf : DotDims.WF S32768x128 S1024x128 S32768x1024 [1] [1] [0] [0] [] []
  dot_S32768x1024_S10x1024_S32768x10_1_1_0_0_n_n_wf : DotDims.WF S32768x1024 S10x1024 S32768x10 [1] [1] [0] [0] [] []

variable [Facts₀]

def dot_S32768x128_S1024x128_S32768x1024_1_1_0_0_n_n : DotDims S32768x128 S1024x128 S32768x1024 where
  lhsContracting := [1]
  rhsContracting := [1]
  lhsNonContracting := [0]
  rhsNonContracting := [0]
  lhsBatch := []
  rhsBatch := []
  wf := dot_S32768x128_S1024x128_S32768x1024_1_1_0_0_n_n_wf
def dot_S32768x1024_S10x1024_S32768x10_1_1_0_0_n_n : DotDims S32768x1024 S10x1024 S32768x10 where
  lhsContracting := [1]
  rhsContracting := [1]
  lhsNonContracting := [0]
  rhsNonContracting := [0]
  lhsBatch := []
  rhsBatch := []
  wf := dot_S32768x1024_S10x1024_S32768x10_1_1_0_0_n_n_wf

class Facts : Prop extends Facts₀ where

variable [Facts]
-- ==== Proof.RbfSpec.lean ====
/-
  A radial-basis head, entry by entry, on the extended reals.

  For a row x of 128 features, 1024 centres c n, one width β n per centre, a weight row w and a bias b:

    ‖x − c n‖²  is taken as  (∑ d, x d · x d + ∑ d, (c n) d · (c n) d) − 2 · ∑ d, x d · (c n) d      (sqDist)
    the activation of centre n is  exp (−β n · sqrt (max ‖x − c n‖² 0))                               (radial)
    the output is  (∑ n, radial n · w n) + b                                                            (head)

  and the whole result array, at (r, j), is the head of row r of x against row j of the weights (whole).
  The two float literals (2 and 0) are kept as their binary words: both programs spell the same words, so they
  are never evaluated.
-/
import Idealize.ShloMosaic.PureOps.Ideal
import Idealize.ShloMosaic.PureOps.Ideal.Laws
import Idealize.ShloMosaic.Lib.ValueIdx

noncomputable section

open scoped BigOperators

namespace Cert.Rbf

open Idealize.ShloMosaic Idealize.ShloMosaic.ValueIdx

/-- The squared distance of a row from a centre, expanded: ‖x‖² + ‖c‖² − 2 · ⟨x, c⟩. -/
def sqDist (xr cn : Fin 128 → EReal) : EReal :=
  ((∑ d : Fin 128, xr d * xr d) + ∑ d : Fin 128, cn d * cn d)
    - Ideal.ofBits .f32 0x40000000#32 * ∑ d : Fin 128, xr d * cn d

/-- One centre's activation: exp (−β · sqrt (max ‖x − c‖² 0)). -/
def radial (xr cn : Fin 128 → EReal) (β : EReal) : EReal :=
  Ideal.exp (-β * Ideal.sqrt (max (sqDist xr cn) (Ideal.ofBits .f32 0x00000000#32)))

/-- The linear head over the 1024 activations of one row, plus the bias. -/
def head (xr : Fin 128 → EReal) (c : Fin 1024 → Fin 128 → EReal) (β w : Fin 1024 → EReal) (b : EReal) : EReal :=
  (∑ n : Fin 1024, radial xr (c n) (β n) * w n) + b

/-- The whole result: entry (r, j) is the head of row r of x, against the centres, with row j of the weights
    and entry j of the bias. -/
def whole (x : (⟨2, ![32768, 128]⟩ : Shape).Idx → EReal) (c : (⟨2, ![1024, 128]⟩ : Shape).Idx → EReal)
    (β : (⟨2, ![1, 1024]⟩ : Shape).Idx → EReal) (w : (⟨2, ![10, 1024]⟩ : Shape).Idx → EReal)
    (b : (⟨1, ![10]⟩ : Shape).Idx → EReal) : (⟨2, ![32768, 10]⟩ : Shape).Idx → EReal :=
  fun j => head (fun d => x (ix2 (j 0) d)) (fun n d => c (ix2 n d)) (fun n => β (ix2 (0 : Fin 1) n))
    (fun n => w (ix2 (j 1) n)) (b (ix1 (j 1)))

/-- The zero word is the real 0: subtracting from it negates, -/
theorem zero_word_sub (a : EReal) : Ideal.ofBits .f32 0x00000000#32 - a = -a := by
  rw [Ideal.ofBits_zero_f32, zero_sub]

/-- and adding to it changes nothing. -/
theorem zero_word_add (a : EReal) : Ideal.ofBits .f32 0x00000000#32 + a = a := by
  rw [Ideal.ofBits_zero_f32, zero_add]

end Cert.Rbf

end
-- ==== Proof.LibGram.lean ====
/-
  Three readings of a matrix at an index, on the extended reals, for any extents.

  * A product of an [n0, K] matrix with an [n1, K] matrix that contracts the LAST axis of both (a Gram-type product
    x · yᵀ) sums, at the result index (r, c), over the positions of a one-axis contraction shape; re-indexed by that
    axis' coordinate it is ∑ k < K, l (r, k) · r (c, k). Stated for any dimension record of those shapes: the record owes
    one contracting axis of extent K (axis 1 on both sides) and free axes that read the result's coordinates.
  * A lane maximum of an [n, k] matrix over its ROWS (axis 0), at column c, is the fold of max from the accumulator's
    value over the n entries of that column; over its COLUMNS (axis 1), at row r, the fold over the row's k entries.
-/
import Idealize.ShloMosaic.PureOps.Ideal.Laws
import Idealize.ShloMosaic.Lib.ValueIdx

noncomputable section

open scoped BigOperators

namespace Idealize.ShloMosaic.Gram

open Idealize.ShloMosaic Idealize.ShloMosaic.ValueIdx

/-- The contraction sum of x · yᵀ at a result index is the sum over the shared last coordinate. -/
theorem sum_contr_last {n0 n1 K : ℕ} {M : Type*} [AddCommMonoid M] [Mul M]
    (D : DotDims (⟨2, ![n0, K]⟩ : Shape) (⟨2, ![n1, K]⟩ : Shape) (⟨2, ![n0, n1]⟩ : Shape))
    (hr : D.contr.rank = 1) (hs : D.contr.size ⟨0, by omega⟩ = K)
    (hlc : D.lhsContracting = [1]) (hrc : D.rhsContracting = [1])
    (hl0 : ∀ j q, (D.lhsIdx j q 0).val = (j 0).val) (hr0 : ∀ j q, (D.rhsIdx j q 0).val = (j 1).val)
    (l : (⟨2, ![n0, K]⟩ : Shape).Idx → M) (r : (⟨2, ![n1, K]⟩ : Shape).Idx → M) (j : (⟨2, ![n0, n1]⟩ : Shape).Idx) :
    ∑ q : D.contr.Idx, l (D.lhsIdx j q) * r (D.rhsIdx j q) = ∑ k : Fin K, l (ix2 (j 0) k) * r (ix2 (j 1) k) := by
  rw [← Equiv.sum_comp (contrEquiv1 D K hr hs).symm]
  refine Finset.sum_congr rfl fun k _ => ?_
  have hk := contrEquiv1_symm_val D K hr hs k
  have h1 := D.lhsIdx_val_of_single hlc j ((contrEquiv1 D K hr hs).symm k)
  have h2 := D.rhsIdx_val_of_single hrc j ((contrEquiv1 D K hr hs).symm k)
  have el : D.lhsIdx j ((contrEquiv1 D K hr hs).symm k) = ix2 (j 0) k := funext fun a => Fin.ext (by
    match a with
    | ⟨0, _⟩ => exact hl0 _ _
    | ⟨1, _⟩ => exact h1.trans hk)
  have er : D.rhsIdx j ((contrEquiv1 D K hr hs).symm k) = ix2 (j 1) k := funext fun a => Fin.ext (by
    match a with
    | ⟨0, _⟩ => exact hr0 _ _
    | ⟨1, _⟩ => exact h2.trans hk)
  exact congrArg₂ (· * ·) (congrArg l el) (congrArg r er)

/-- The reduced index `c` with the row `r` put back is the matrix index `(r, c)`. -/
theorem lift_cols {n k : ℕ} (h : (⟨2, ![n, k]⟩ : Shape).Reduces [0] ⟨1, ![k]⟩) (c : Fin k) (r : Fin n) :
    h.lift (ix1 c) r = ix2 r c :=
  funext fun a => Fin.ext (by match a with | ⟨0, _⟩ => rfl | ⟨1, _⟩ => rfl)

/-- The reduced index `r` with the column `c` put back is the matrix index `(r, c)`. -/
theorem lift_rows {n k : ℕ} (h : (⟨2, ![n, k]⟩ : Shape).Reduces [1] ⟨1, ![n]⟩) (r : Fin n) (c : Fin k) :
    h.lift (ix1 r) c = ix2 r c :=
  funext fun a => Fin.ext (by match a with | ⟨0, _⟩ => rfl | ⟨1, _⟩ => rfl)

/-- A lane maximum over the rows of an `[n, k]` matrix, at column `c`: the fold of max over that column. -/
theorem multiReduction_max_cols_apply {n k : ℕ} (src : FVec Ideal ⟨2, ![n, k]⟩ .f32) (acc : BitVec 32)
    (h : (⟨2, ![n, k]⟩ : Shape).Reduces [0] ⟨1, ![k]⟩) (hφ : FKind.Formats .f32)
    (hacc : acc = FKind.maximumf.neutral .f32 hφ) (c : Fin k) :
    multiReduction .maximumf [0] ⟨1, ![k]⟩ src acc h hφ hacc (ix1 c)
      = (Finset.univ : Finset (Fin n)).fold max (Ideal.ofBits .f32 acc) (fun r => src (ix2 r c)) :=
  (Ideal.multiReduction_maximumf_single src acc h hφ hacc (ix1 c)).trans
    (Finset.fold_congr fun r _ => congrArg src (lift_cols h c r))

/-- A lane maximum over the columns of an `[n, k]` matrix, at row `r`: the fold of max over that row. -/
theorem multiReduction_max_rows_apply {n k : ℕ} (src : FVec Ideal ⟨2, ![n, k]⟩ .f32) (acc : BitVec 32)
    (h : (⟨2, ![n, k]⟩ : Shape).Reduces [1] ⟨1, ![n]⟩) (hφ : FKind.Formats .f32)
    (hacc : acc = FKind.maximumf.neutral .f32 hφ) (r : Fin n) :
    multiReduction .maximumf [1] ⟨1, ![n]⟩ src acc h hφ hacc (ix1 r)
      = (Finset.univ : Finset (Fin k)).fold max (Ideal.ofBits .f32 acc) (fun c => src (ix2 r c)) :=
  (Ideal.multiReduction_maximumf_single src acc h hφ hacc (ix1 r)).trans
    (Finset.fold_congr fun c _ => congrArg src (lift_rows h r c))

end Idealize.ShloMosaic.Gram

end
-- ==== Proof.LibRowSum.lean ====
/-
  A sum along the rows of a matrix, read at an index on the extended reals: a lane reduction of an [n, k] matrix
  over its columns, into the zero accumulator, is at row r the sum over the k columns of the row's entries.
-/
import Idealize.ShloMosaic.PureOps.Ideal.Laws
import Idealize.ShloMosaic.Lib.ValueIdx

namespace Idealize.ShloMosaic.ValueIdx

open Idealize.ShloMosaic

/-- The reduced index `r` with the column `d` put back is the matrix index `(r, d)`. -/
theorem lift_rows {n k : ℕ} (h : (⟨2, ![n, k]⟩ : Shape).Reduces [1] ⟨1, ![n]⟩) (r : Fin n) (d : Fin k) :
    h.lift (ix1 r) d = ix2 r d :=
  funext fun a => Fin.ext (by match a with | ⟨0, _⟩ => rfl | ⟨1, _⟩ => rfl)

/-- A float lane sum over the columns of an `[n, k]` matrix, at row `r`, is the sum of the row's `k` entries. -/
theorem multiReduction_add_rows_apply {n k : ℕ} (src : FVec Ideal ⟨2, ![n, k]⟩ .f32)
    (h : (⟨2, ![n, k]⟩ : Shape).Reduces [1] ⟨1, ![n]⟩) (hφ : FKind.Formats .f32)
    (hacc : (0x00000000#32 : BitVec 32) = FKind.add.neutral .f32 hφ) (r : Fin n) :
    multiReduction .add [1] ⟨1, ![n]⟩ src 0x00000000#32 h hφ hacc (ix1 r) = ∑ d : Fin k, src (ix2 r d) :=
  (Ideal.multiReduction_add_single src 0x00000000#32 h hφ hacc (ix1 r)).trans
    (Finset.sum_congr rfl fun d _ => congrArg src (lift_rows h r d))

end Idealize.ShloMosaic.ValueIdx
-- ==== Proof.LibColumn.lean ====
/-
  A column kept as a unit trailing axis (what `jnp.sum(…, keepdims=True)` over the last axis produces), read at an
  index: a vector of length a viewed as an [a, 1] column, and an [a, 1] column broadcast along the rows of an
  [a, b] matrix. (The library has the leading-unit-axis forms and the row broadcast [1, b] → [a, b]; these are the
  trailing-unit-axis counterparts, for any extents.)
-/
import Idealize.ShloMosaic.Lib.Pipeline.Value
import Idealize.ShloMosaic.Lib.ValueIdx

namespace Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.Payload.lean ====
/-
  What the kernel body computes for one block of 512 rows, read at an entry, on the extended reals.

  The body's value is cut into its stages: the squared norms of the block's rows (a lane sum kept as a column and
  spread along the 1024 centres), the squared norms of the centres (a lane sum kept as a row and spread along the
  512 rows), the inner products of rows with centres (a matrix product contracting the feature axis of both),
  the activations exp ((0 − β) · sqrt (max (‖x‖² + ‖c‖² − 2 ⟨x, c⟩) 0)), and the linear head (a second matrix
  product, contracting the centre axis of both, plus the bias spread along the rows).

  Each stage is read at (p, n) or (p, q); the changes of float format are the identity on the extended reals,
  a matrix product into the zero accumulator is the plain sum of products, and 0 − β is −β.
-/
import proofs.«139271_j21921513079255_1_alg».proof.Proof.Gen.KernelIdeal.Skeleton
import proofs.«139271_j21921513079255_1_alg».proof.Proof.RbfSpec
import proofs.«139271_j21921513079255_1_alg».proof.Proof.LibGram
import proofs.«139271_j21921513079255_1_alg».proof.Proof.LibRowSum
import proofs.«139271_j21921513079255_1_alg».proof.Proof.LibColumn
import Idealize.ShloMosaic.Lib.ValueLayout
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-! ## The stages of the body's value -/

section stages

variable {F : FTy → Type} [FloatOps F]

/-- The squared norm of each of the block's rows, spread along the centres. -/
def rowNorms (v0 : Vec F S512x128 .f32) : FVec F S512x1024 .f32 :=
  broadcastTo S512x1024 (shapeCast S512x1 (multiReduction .add [1] S512 (mulf v0 v0) 0x00000000#32 reduces_S512x128_S512 (.inl rfl) rfl) shapeCasts_S512_S512x1) broadcasts_S512x1_S512x1024

/-- The squared norm of each centre, spread along the block's rows. -/
def centreNorms (v1 : Vec F S1024x128 .f32) : FVec F S512x1024 .f32 :=
  broadcastTo S512x1024 (shapeCast S1x1024 (multiReduction .add [1] S1024 (mulf v1 v1) 0x00000000#32 reduces_S1024x128_S1024 (.inl rfl) rfl) shapeCasts_S1024_S1x1024) broadcasts_S1x1024_S512x1024

/-- The inner product of each row with each centre. -/
def inner (v0 : Vec F S512x128 .f32) (v1 : Vec F S1024x128 .f32) : FVec F S512x1024 .f32 :=
  matmul dot_S512x128_S1024x128_S512x1024_1_1_0_0_n_n none (truncf .bf16 v0 bitsLt_bf16_f32) (truncf .bf16 v1 bitsLt_bf16_f32) (constant S512x1024 .f32 0x00000000#32)

/-- The activation of each centre on each row. -/
def activ (v0 : Vec F S512x128 .f32) (v1 : Vec F S1024x128 .f32) (v20 : Vec F S1x1024 .f32) : FVec F S512x1024 .f32 :=
  exp (mulf (broadcastTo S512x1024 (subf (broadcast S1x1024 (Scalar.ofBits .f32 0x00000000#32)) v20) broadcasts_S1x1024_S512x1024)
    (sqrt (maximumf (subf (addf (rowNorms v0) (centreNorms v1)) (mulf (broadcast S512x1024 (Scalar.ofBits .f32 0x40000000#32)) (inner v0 v1)))
      (broadcast S512x1024 (Scalar.ofBits .f32 0x00000000#32)))))

/-- The body's stored value is the linear head over the activations plus the bias row: its printed operations,
    regrouped by stage. -/
theorem pay_eq (v0 : Vec F S512x128 .f32) (v1 : Vec F S1024x128 .f32) (v20 : Vec F S1x1024 .f32) (v27 : Vec F S10x1024 .f32) (v30 : Vec F S10 .f32) :
    k0_pay1 v0 v1 v20 v27 v30
      = addf (matmul dot_S512x1024_S10x1024_S512x10_1_1_0_0_n_n none (truncf .bf16 (activ v0 v1 v20) bitsLt_bf16_f32) (truncf .bf16 v27 bitsLt_bf16_f32) (constant S512x10 .f32 0x00000000#32))
          (broadcastTo S512x10 (shapeCast S1x10 v30 shapeCasts_S10_S1x10) broadcasts_S1x10_S512x10) := rfl

end stages

/-! ## Each stage at an entry, on the extended reals -/

/-- Row p's squared norm, whatever the centre. -/
theorem rowNorms_apply (v0 : Vec Ideal S512x128 .f32) (p : Fin 512) (n : Fin 1024) :
    rowNorms v0 (ix2 p n) = ∑ d : Fin 128, v0 (ix2 p d) * v0 (ix2 p d) := by
  unfold rowNorms
  rw [broadcastTo_a1_ab_apply, shapeCast_a_a1_apply]
  exact multiReduction_add_rows_apply (mulf v0 v0) reduces_S512x128_S512 (.inl rfl) rfl p

/-- Centre n's squared norm, whatever the row. -/
theorem centreNorms_apply (v1 : Vec Ideal S1024x128 .f32) (p : Fin 512) (n : Fin 1024) :
    centreNorms v1 (ix2 p n) = ∑ d : Fin 128, v1 (ix2 n d) * v1 (ix2 n d) := by
  unfold centreNorms
  rw [broadcastTo_1b_ab_apply, shapeCast_a_1a_apply]
  exact multiReduction_add_rows_apply (mulf v1 v1) reduces_S1024x128_S1024 (.inl rfl) rfl n

/-- In the first product the left operand's free axis reads the result's row, -/
theorem inner_lhs0 (j : S512x1024.Idx) (q : dot_S512x128_S1024x128_S512x1024_1_1_0_0_n_n.contr.Idx) :
    (dot_S512x128_S1024x128_S512x1024_1_1_0_0_n_n.lhsIdx j q 0).val = (j 0).val := by
  unfold DotDims.lhsIdx
  rw [dif_neg (show ¬(0 : Fin S512x128.rank) ∈ dot_S512x128_S1024x128_S512x1024_1_1_0_0_n_n.lhsBatch by decide),
    dif_pos (show (0 : Fin S512x128.rank) ∈ dot_S512x128_S1024x128_S512x1024_1_1_0_0_n_n.lhsNonContracting by decide)]
  rfl

/-- and the right operand's free axis the result's column. -/
theorem inner_rhs0 (j : S512x1024.Idx) (q : dot_S512x128_S1024x128_S512x1024_1_1_0_0_n_n.contr.Idx) :
    (dot_S512x128_S1024x128_S512x1024_1_1_0_0_n_n.rhsIdx j q 0).val = (j 1).val := by
  unfold DotDims.rhsIdx
  rw [dif_neg (show ¬(0 : Fin S1024x128.rank) ∈ dot_S512x128_S1024x128_S512x1024_1_1_0_0_n_n.rhsBatch by decide),
    dif_pos (show (0 : Fin S1024x128.rank) ∈ dot_S512x128_S1024x128_S512x1024_1_1_0_0_n_n.rhsNonContracting by decide)]
  rfl

/-- The inner product of row p with centre n: the sum over the 128 features. -/
theorem inner_apply (v0 : Vec Ideal S512x128 .f32) (v1 : Vec Ideal S1024x128 .f32) (p : Fin 512) (n : Fin 1024) :
    inner v0 v1 (ix2 p n) = ∑ d : Fin 128, v0 (ix2 p d) * v1 (ix2 n d) := by
  unfold inner
  simp only [matmul]
  rw [Ideal.matmul_constant_zero_apply]
  exact Gram.sum_contr_last dot_S512x128_S1024x128_S512x1024_1_1_0_0_n_n rfl rfl rfl rfl inner_lhs0 inner_rhs0 _ _ (ix2 p n)

/-- The activation of centre n on row p. -/
theorem activ_apply (v0 : Vec Ideal S512x128 .f32) (v1 : Vec Ideal S1024x128 .f32) (v20 : Vec Ideal S1x1024 .f32) (p : Fin 512) (n : Fin 1024) :
    activ v0 v1 v20 (ix2 p n) = Cert.Rbf.radial (fun d => v0 (ix2 p d)) (fun d => v1 (ix2 n d)) (v20 (ix2 (0 : Fin 1) n)) := by
  show Ideal.exp (broadcastTo S512x1024 (subf (broadcast S1x1024 (Scalar.ofBits (F := Ideal) .f32 0x00000000#32)) v20) broadcasts_S1x1024_S512x1024 (ix2 p n)
      * Ideal.sqrt (max ((rowNorms v0 (ix2 p n) + centreNorms v1 (ix2 p n)) - Ideal.ofBits .f32 0x40000000#32 * inner v0 v1 (ix2 p n)) (Ideal.ofBits .f32 0x00000000#32))) = _
  rw [broadcastTo_1b_ab_apply, rowNorms_apply, centreNorms_apply, inner_apply]
  show Ideal.exp ((Ideal.ofBits .f32 0x00000000#32 - v20 (ix2 (0 : Fin 1) n)) * _) = _
  rw [Cert.Rbf.zero_word_sub]
  rfl

/-- In the second product the left operand's free axis reads the result's row, -/
theorem head_lhs0 (j : S512x10.Idx) (q : dot_S512x1024_S10x1024_S512x10_1_1_0_0_n_n.contr.Idx) :
    (dot_S512x1024_S10x1024_S512x10_1_1_0_0_n_n.lhsIdx j q 0).val = (j 0).val := by
  unfold DotDims.lhsIdx
  rw [dif_neg (show ¬(0 : Fin S512x1024.rank) ∈ dot_S512x1024_S10x1024_S512x10_1_1_0_0_n_n.lhsBatch by decide),
    dif_pos (show (0 : Fin S512x1024.rank) ∈ dot_S512x1024_S10x1024_S512x10_1_1_0_0_n_n.lhsNonContracting by decide)]
  rfl

/-- and the right operand's free axis the result's column. -/
theorem head_rhs0 (j : S512x10.Idx) (q : dot_S512x1024_S10x1024_S512x10_1_1_0_0_n_n.contr.Idx) :
    (dot_S512x1024_S10x1024_S512x10_1_1_0_0_n_n.rhsIdx j q 0).val = (j 1).val := by
  unfold DotDims.rhsIdx
  rw [dif_neg (show ¬(0 : Fin S10x1024.rank) ∈ dot_S512x1024_S10x1024_S512x10_1_1_0_0_n_n.rhsBatch by decide),
    dif_pos (show (0 : Fin S10x1024.rank) ∈ dot_S512x1024_S10x1024_S512x10_1_1_0_0_n_n.rhsNonContracting by decide)]
  rfl

/-- The head's product of any [512, 1024] matrix with the weights, at (p, q): the sum over the 1024 centres. -/
theorem headDot_apply (y : FVec Ideal S512x1024 .f32) (v27 : Vec Ideal S10x1024 .f32) (p : Fin 512) (q : Fin 10) :
    matmul dot_S512x1024_S10x1024_S512x10_1_1_0_0_n_n none (truncf .bf16 y bitsLt_bf16_f32) (truncf .bf16 v27 bitsLt_bf16_f32) (constant (F := Ideal) S512x10 .f32 0x00000000#32) (ix2 p q)
      = ∑ n : Fin 1024, y (ix2 p n) * v27 (ix2 q n) := by
  simp only [matmul]
  rw [Ideal.matmul_constant_zero_apply]
  exact Gram.sum_contr_last dot_S512x1024_S10x1024_S512x10_1_1_0_0_n_n rfl rfl rfl rfl head_lhs0 head_rhs0 _ _ (ix2 p q)

/-- THE BODY'S VALUE AT AN ENTRY: entry (p, q) of the stored block is the radial-basis head of row p of the loaded
    rows against the loaded centres and widths, with row q of the loaded weights and entry q of the loaded bias. -/
theorem pay_apply (v0 : Vec Ideal S512x128 .f32) (v1 : Vec Ideal S1024x128 .f32) (v20 : Vec Ideal S1x1024 .f32) (v27 : Vec Ideal S10x1024 .f32) (v30 : Vec Ideal S10 .f32)
    (p : Fin 512) (q : Fin 10) :
    k0_pay1 (F := Ideal) v0 v1 v20 v27 v30 (ix2 p q)
      = Cert.Rbf.head (fun d => v0 (ix2 p d)) (fun n d => v1 (ix2 n d)) (fun n => v20 (ix2 (0 : Fin 1) n)) (fun n => v27 (ix2 q n)) (v30 (ix1 q)) := by
  rw [pay_eq]
  show matmul dot_S512x1024_S10x1024_S512x10_1_1_0_0_n_n none (truncf .bf16 (activ v0 v1 v20) bitsLt_bf16_f32) (truncf .bf16 v27 bitsLt_bf16_f32) (constant (F := Ideal) S512x10 .f32 0x00000000#32) (ix2 p q)
      + broadcastTo S512x10 (shapeCast S1x10 v30 shapeCasts_S10_S1x10) broadcasts_S1x10_S512x10 (ix2 p q) = _
  rw [headDot_apply, broadcastTo_1b_ab_apply, shapeCast_a_1a_apply]
  unfold Cert.Rbf.head
  refine congrArg₂ (· + ·) (Finset.sum_congr rfl fun n _ => ?_) rfl
  rw [activ_apply]

end Cert.KernelIdeal.Payload

end
-- ==== Proof.Blocks.lean ====
/-
  From blocks to the array: after the run the kernel's result array is the spec's whole function of the arguments.

  The grid has 64 points. Point t stages rows 512·t … 512·t + 511 of x and writes back the same rows of the
  result; the centres, the widths, the weights and the bias are staged whole at every point (their block index is
  constantly 0). So an entry (p, q) of the block point t writes is the head of row 512·t + p of x against all the
  centres, with row q of the weights and entry q of the bias — which is entry (512·t + p, q) of the whole function.
  The 64 blocks of 512 rows cover the 32768 rows: row r lies in the block of point r / 512.
-/
import proofs.«139271_j21921513079255_1_alg».proof.Proof.Gen.KernelIdeal.Value
import proofs.«139271_j21921513079255_1_alg».proof.Proof.Payload

noncomputable section

namespace Cert.KernelIdeal.RbfValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem off2 : (![0, 0] : Fin 2 → Nat) = fun _ => 0 := funext fun a => by fin_cases a <;> rfl
theorem off1 : (![0] : Fin 1 → Nat) = fun _ => 0 := funext fun a => by fin_cases a <;> rfl

/-- The block indices at a point, decided over the 64 points: the rows of x and of the result move with the point,
    every other operand stays at block 0. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- An entry of the body's stored block, from loaded blocks that are the arguments read where the output's block
    sits: the row of x at the output's row, everything else whole. -/
theorem block_entry (x : S32768x128.Idx → EReal) (cc : S1024x128.Idx → EReal) (β : S1x1024.Idx → EReal) (w : S10x1024.Idx → EReal)
    (b : S10.Idx → EReal)
    (v0 : Vec Ideal S512x128 .f32) (v1 : Vec Ideal S1024x128 .f32) (v20 : Vec Ideal S1x1024 .f32) (v27 : Vec Ideal S10x1024 .f32)
    (v30 : Vec Ideal S10 .f32) (i : S32768x10.Idx) (y : S512x10.Idx)
    (h0 : ∀ d : Fin 128, v0 (ix2 (y 0) d) = x (ix2 (i 0) d))
    (h1 : ∀ (n : Fin 1024) (d : Fin 128), v1 (ix2 n d) = cc (ix2 n d))
    (h2 : ∀ n : Fin 1024, v20 (ix2 (0 : Fin 1) n) = β (ix2 (0 : Fin 1) n))
    (h3 : ∀ n : Fin 1024, v27 (ix2 (y 1) n) = w (ix2 (i 1) n))
    (h4 : v30 (ix1 (y 1)) = b (ix1 (i 1))) :
    k0_pay1 (F := Ideal) v0 v1 v20 v27 v30 y = Cert.Rbf.whole x cc β w b i := by
  obtain ⟨p, q, rfl⟩ : ∃ (p : Fin 512) (q : Fin 10), y = ix2 p q := ⟨y 0, y 1, eq_ix2 y⟩
  rw [Cert.KernelIdeal.Payload.pay_apply]
  unfold Cert.Rbf.whole
  have h0' : (fun d : Fin 128 => v0 (ix2 p d)) = fun d => x (ix2 (i 0) d) := funext h0
  have h1' : (fun (n : Fin 1024) (d : Fin 128) => v1 (ix2 n d)) = fun n d => cc (ix2 n d) := funext fun n => funext (h1 n)
  have h2' : (fun n : Fin 1024 => v20 (ix2 (0 : Fin 1) n)) = fun n => β (ix2 (0 : Fin 1) n) := funext h2
  have h3' : (fun n : Fin 1024 => v27 (ix2 q n)) = fun n => w (ix2 (i 1) n) := funext h3
  rw [h0', h1', h2', h3', h4]

/-- WHAT POINT t WRITES BACK is block t of the whole function of the argument arrays as the region finds them. -/
theorem flushed_eq (c : Dev nD) (t : Fin cfg0.N) :
    (dats m 0 c).flushed 5 t = ((cfg0.win 5).blk t).view.read (Elt Ideal)
      (Cert.Rbf.whole (V m c main_arg0) (V m c main_arg1) (V m c main_arg2) (V m c main_arg3) (V m c main_arg4)) := by
  rw [Cert.KernelIdeal.Value.flushed5]
  unfold out0_5
  rw [View.canon_unit_zero off2]
  simp only [View.ld_unit_zero (S := S512x128) off2, View.ld_unit_zero (S := S1024x128) off2, View.ld_unit_zero (S := S1x1024) off2,
    View.ld_unit_zero (S := S10x1024) off2, View.ld_unit_zero (S := S10) off1]
  obtain ⟨e00, e01, e10, e11, e20, e21, e30, e31, e40, e50, e51⟩ := block_indices t
  funext y
  show k0_pay1 (F := Ideal) (iblk m c 0 t) (iblk m c 1 t) (iblk m c 2 t) (iblk m c 3 t) (iblk m c 4 t) y
    = Cert.Rbf.whole (V m c main_arg0) (V m c main_arg1) (V m c main_arg2) (V m c main_arg3) (V m c main_arg4) (((cfg0.win 5).blk t).view.emb y)
  refine block_entry _ _ _ _ _ (iblk m c 0 t) (iblk m c 1 t) (iblk m c 2 t) (iblk m c 3 t) (iblk m c 4 t) _ y ?_ ?_ ?_ ?_ ?_
  · intro d
    show V m c main_arg0 (((cfg0.win 0).blk t).view.emb (ix2 (y 0) d)) = V m c main_arg0 (ix2 ((((cfg0.win 5).blk t).view.emb y) 0) d)
    refine congrArg (V m c main_arg0) (funext fun a => Fin.ext ?_)
    match a with
    | ⟨0, _⟩ => show win0_0.index t (0 : Fin 2) * 512 + 1 * (y 0).val = win0_5.index t (0 : Fin 2) * 512 + 1 * (y 0).val; omega
    | ⟨1, _⟩ => show win0_0.index t (1 : Fin 2) * 128 + 1 * d.val = d.val; omega
  · intro n d
    show V m c main_arg1 (((cfg0.win 1).blk t).view.emb (ix2 n d)) = V m c main_arg1 (ix2 n d)
    refine congrArg (V m c main_arg1) (funext fun a => Fin.ext ?_)
    match a with
    | ⟨0, _⟩ => show win0_1.index t (0 : Fin 2) * 1024 + 1 * n.val = n.val; omega
    | ⟨1, _⟩ => show win0_1.index t (1 : Fin 2) * 128 + 1 * d.val = d.val; omega
  · intro n
    show V m c main_arg2 (((cfg0.win 2).blk t).view.emb (ix2 (0 : Fin 1) n)) = V m c main_arg2 (ix2 (0 : Fin 1) n)
    refine congrArg (V m c main_arg2) (funext fun a => Fin.ext ?_)
    match a with
    | ⟨0, _⟩ => show win0_2.index t (0 : Fin 2) * 1 + 1 * 0 = 0; omega
    | ⟨1, _⟩ => show win0_2.index t (1 : Fin 2) * 1024 + 1 * n.val = n.val; omega
  · intro n
    show V m c main_arg3 (((cfg0.win 3).blk t).view.emb (ix2 (y 1) n)) = V m c main_arg3 (ix2 ((((cfg0.win 5).blk t).view.emb y) 1) n)
    refine congrArg (V m c main_arg3) (funext fun a => Fin.ext ?_)
    match a with
    | ⟨0, _⟩ => show win0_3.index t (0 : Fin 2) * 10 + 1 * (y 1).val = win0_5.index t (1 : Fin 2) * 10 + 1 * (y 1).val; omega
    | ⟨1, _⟩ => show win0_3.index t (1 : Fin 2) * 1024 + 1 * n.val = n.val; omega
  · show V m c main_arg4 (((cfg0.win 4).blk t).view.emb (ix1 (y 1))) = V m c main_arg4 (ix1 ((((cfg0.win 5).blk t).view.emb y) 1))
    refine congrArg (V m c main_arg4) (funext fun a => Fin.ext ?_)
    match a with
    | ⟨0, _⟩ => show win0_4.index t (0 : Fin 1) * 10 + 1 * (y 1).val = win0_5.index t (1 : Fin 2) * 10 + 1 * (y 1).val; omega

/-- An index of the result array is in point t's block iff each coordinate is in the block's range on its axis. -/
theorem mem_blk (t : Fin cfg0.N) (i : S32768x10.Idx) :
    i ∈ ((cfg0.win 5).blk t).view.set ↔ ∀ a : Fin 2, win0_5.index t a * S512x10.size a ≤ (i a).val ∧ (i a).val < win0_5.index t a * S512x10.size a + S512x10.size a := by
  show i ∈ ((View.whole main_v0).slice (win0_5.rect t)).set ↔ _
  rw [View.set_slice_whole, Rect.mem_set_unit]
  exact Iff.rfl

/-- Every entry of the result lies in the block of some point: row r in the block of point r / 512. -/
theorem covered (i : S32768x10.Idx) : ∃ t : Fin cfg0.N, (cfg0.win 5).flush t = true ∧ i ∈ ((cfg0.win 5).blk t).view.set := by
  have hi0 : (i 0).val < 32768 := (i 0).isLt
  have hi1 : (i 1).val < 10 := (i 1).isLt
  have ht : (i 0).val / 512 < 64 := by omega
  obtain ⟨t, htv⟩ : ∃ t : Fin cfg0.N, t.val = (i 0).val / 512 := ⟨⟨(i 0).val / 512, ht⟩, rfl⟩
  obtain ⟨e00, e01, e10, e11, e20, e21, e30, e31, e40, e50, e51⟩ := block_indices t
  refine ⟨t, flush0_5 t, ?_⟩
  rw [mem_blk]
  intro a
  match a with
  | ⟨0, _⟩ => show win0_5.index t (0 : Fin 2) * 512 ≤ (i 0).val ∧ (i 0).val < win0_5.index t (0 : Fin 2) * 512 + 512; omega
  | ⟨1, _⟩ => show win0_5.index t (1 : Fin 2) * 10 ≤ (i 1).val ∧ (i 1).val < win0_5.index t (1 : Fin 2) * 10 + 10; omega

/-- THE RESULT ARRAY after the run is the whole function of the argument arrays. -/
theorem final (c : Dev nD) :
    (dats m 0 c).arrAt 5 cfg0.N = Cert.Rbf.whole (m ((c : Thread nD τ).loc main_arg0)) (m ((c : Thread nD τ).loc main_arg1))
      (m ((c : Thread nD τ).loc main_arg2)) (m ((c : Thread nD τ).loc main_arg3)) (m ((c : Thread nD τ).loc main_arg4)) :=
  (dats m 0 c).arrAt_eq_of_cover 5 _ (fun t _ => flushed_eq m c t) covered

/-- The kernel's run with its result named: every weakly fair execution terminates with the result array at the whole
    function of the arguments and the arguments unchanged. -/
theorem run : θ_run defs (onTc (τ := τ) (main (F := Ideal))) ⟨m, fun _ => 0, ρ⟩ fun r => ∀ c : Dev nD,
      r.2.mem ((c : Thread nD τ).loc main_v0) = Cert.Rbf.whole (m ((c : Thread nD τ).loc main_arg0)) (m ((c : Thread nD τ).loc main_arg1))
        (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Cert.KernelIdeal.Value.run_blocks m ρ)

end Cert.KernelIdeal.RbfValue

end
-- ==== Proof.RefWhole.lean ====
/-
  The reference's result, entry by entry, is the radial-basis head of the spec.

  The reference spells each step as a whole-array operation: the row norms and centre norms by a sum along the
  feature axis from the initial value 0, kept as a column / a row and spread to [32768, 1024]; the inner products by
  one contraction of the feature axis of both operands; then max with 0, square root, the product with the negated
  widths, the exponential, a second contraction over the centres, and the bias spread along the rows. Read at (r, n)
  and (r, j), every step lands on the spec's formula; the only arithmetic used is 0 + s = s.
-/
import proofs.«139271_j21921513079255_1_alg».proof.Proof.Gen.ReferenceIdeal.Read
import proofs.«139271_j21921513079255_1_alg».proof.Proof.RbfSpec

noncomputable section

open scoped BigOperators

namespace Cert.ReferenceIdeal.RefValue

open Cert.ReferenceIdeal Cert.ReferenceIdeal.Gen Cert.ReferenceIdeal.Read Idealize.ShloMosaic Idealize.ShloMosaic.ValueIdx

/-- The activations the reference computes, at (r, n): centre n's activation on row r. -/
theorem activ_apply (x0 : (⟨S32768x128, .f32⟩ : BufTy).Contents (Elt Ideal)) (x1 : (⟨S1024x128, .f32⟩ : BufTy).Contents (Elt Ideal))
    (x2 : (⟨S1x1024, .f32⟩ : BufTy).Contents (Elt Ideal)) (r : Fin 32768) (n : Fin 1024) :
    val_main_v19 (F := Ideal) x0 x1 x2 (ix2 r n)
      = Cert.Rbf.radial (fun d => x0 (ix2 r d)) (fun d => x1 (ix2 n d)) (x2 (ix2 (0 : Fin 1) n)) := by
  have eβ : idx_main_v17 (ix2 r n) = ix2 (0 : Fin 1) n :=
    funext fun a => Fin.ext (by match a with | ⟨0, _⟩ => rfl | ⟨1, _⟩ => rfl)
  have ex : ∀ k : Fin 128, idx_main_v1 (idx_main_v2 (idx_main_v6 (ix2 r n))) k = ix2 r k := fun k =>
    funext fun a => Fin.ext (by match a with | ⟨0, _⟩ => rfl | ⟨1, _⟩ => rfl)
  have ec : ∀ k : Fin 128, idx_main_v4 (idx_main_v5 (idx_main_v7 (ix2 r n))) k = ix2 n k := fun k =>
    funext fun a => Fin.ext (by match a with | ⟨0, _⟩ => rfl | ⟨1, _⟩ => rfl)
  have el : ∀ k : Fin 128, lidx_main_v9 (ix2 r n) k = ix2 r k := fun k =>
    funext fun a => Fin.ext (by match a with | ⟨0, _⟩ => rfl | ⟨1, _⟩ => rfl)
  have er : ∀ k : Fin 128, ridx_main_v9 (ix2 r n) k = ix2 n k := fun k =>
    funext fun a => Fin.ext (by match a with | ⟨0, _⟩ => rfl | ⟨1, _⟩ => rfl)
  rw [val_main_v19_apply, val_main_v18_apply, val_main_v17_apply, val_main_v16_apply, val_main_v15_apply, val_main_v14_apply,
    val_main_v13_apply, val_main_cst_2_apply, val_main_v12_apply, val_main_v11_apply, val_main_v10_apply, val_main_cst_1_apply,
    val_main_v9_apply, val_main_v8_apply, val_main_v6_apply, val_main_v2_apply, val_main_v1_apply, val_main_cst_apply,
    val_main_v7_apply, val_main_v5_apply, val_main_v4_apply, val_main_cst_0_apply]
  simp only [val_main_v0_apply, val_main_v3_apply, eβ, ex, ec, el, er, Ideal.hostUnary_exp_def, Ideal.hostUnary_sqrt_def, Ideal.mulf_def,
    Ideal.hostNegf_def, Ideal.negf_def, Ideal.maximumf_def, Ideal.subf_def, Ideal.addf_def, Ideal.ofBits_def, Cert.Rbf.zero_word_add]
  rfl

/-- THE REFERENCE'S RESULT IS THE SPEC'S: the last stage, entry by entry, is the head of row r against the centres. -/
theorem ref_eq_whole (x0 : (⟨S32768x128, .f32⟩ : BufTy).Contents (Elt Ideal)) (x1 : (⟨S1024x128, .f32⟩ : BufTy).Contents (Elt Ideal))
    (x2 : (⟨S1x1024, .f32⟩ : BufTy).Contents (Elt Ideal)) (x3 : (⟨S10x1024, .f32⟩ : BufTy).Contents (Elt Ideal))
    (x4 : (⟨S10, .f32⟩ : BufTy).Contents (Elt Ideal)) :
    val_main_v23 (F := Ideal) x0 x1 x2 x3 x4 = Cert.Rbf.whole x0 x1 x2 x3 x4 := by
  funext i
  obtain ⟨r, j, rfl⟩ : ∃ (r : Fin 32768) (j : Fin 10), i = ix2 r j := ⟨i 0, i 1, eq_ix2 i⟩
  have el : ∀ k : Fin 1024, lidx_main_v20 (ix2 r j) k = ix2 r k := fun k =>
    funext fun a => Fin.ext (by match a with | ⟨0, _⟩ => rfl | ⟨1, _⟩ => rfl)
  have er : ∀ k : Fin 1024, ridx_main_v20 (ix2 r j) k = ix2 j k := fun k =>
    funext fun a => Fin.ext (by match a with | ⟨0, _⟩ => rfl | ⟨1, _⟩ => rfl)
  have eb : idx_main_v21 (idx_main_v22 (ix2 r j)) = ix1 j :=
    funext fun a => Fin.ext (by match a with | ⟨0, _⟩ => rfl)
  rw [val_main_v23_apply, val_main_v20_apply, val_main_v22_apply, val_main_v21_apply, eb]
  unfold Cert.Rbf.whole Cert.Rbf.head
  refine congrArg₂ (· + ·) (Finset.sum_congr rfl fun n _ => ?_) rfl
  rw [el, er]
  exact congrArg (· * x3 (ix2 j n)) (activ_apply x0 x1 x2 r n)

end Cert.ReferenceIdeal.RefValue

end
-- ==== Proof.lean ====
/-
  The proof of `Cert.Claim`: a radial-basis network layer computed by a tiled kernel equals its plain reference on the
  extended reals.

  Both programs compute, for each of 32768 rows x and each of 10 outputs j,

      out (r, j) = (∑ n < 1024, exp (−β n · sqrt (max (‖x r‖² + ‖c n‖² − 2 ⟨x r, c n⟩) 0)) · W (j, n)) + b j,

  with ‖·‖² and ⟨·,·⟩ sums over the 128 features (Proof/RbfSpec.lean). The kernel walks the rows in 64 blocks of 512
  with the centres, widths, weights and bias resident; it rounds operands of its two matrix products to a shorter
  format, which is the identity on the extended reals, accumulates each product into zero, and negates the widths as
  0 − β. The reference computes whole arrays. Neither side regroups a sum, so no finiteness is needed: the joining
  facts are 0 + s = s and 0 − β = −β.

  * Proof/Payload.lean  — the body's value for one block, read at an entry;
  * Proof/Blocks.lean   — the 64 blocks cover the result, so the kernel's result array is the spec's whole function;
  * Proof/RefWhole.lean — the reference's last stage, read at an entry, is the same function;
  * here: the three frames (the generated runs), the empty idealization ledger, and the two runs side by side.
-/
import proofs.«139271_j21921513079255_1_alg».proof.Defs
import proofs.«139271_j21921513079255_1_alg».proof.Proof.Gen.Kernel
import proofs.«139271_j21921513079255_1_alg».proof.Proof.Gen.Kernel.Skeleton
import proofs.«139271_j21921513079255_1_alg».proof.Proof.Gen.Kernel.Launch
import proofs.«139271_j21921513079255_1_alg».proof.Proof.Gen.Kernel.Points
import proofs.«139271_j21921513079255_1_alg».proof.Proof.Gen.Kernel.Frame
import proofs.«139271_j21921513079255_1_alg».proof.Proof.Gen.KernelIdeal
import proofs.«139271_j21921513079255_1_alg».proof.Proof.Gen.KernelIdeal.Skeleton
import proofs.«139271_j21921513079255_1_alg».proof.Proof.Gen.KernelIdeal.Launch
import proofs.«139271_j21921513079255_1_alg».proof.Proof.Gen.KernelIdeal.Points
import proofs.«139271_j21921513079255_1_alg».proof.Proof.Gen.KernelIdeal.Frame
import proofs.«139271_j21921513079255_1_alg».proof.Proof.Gen.ReferenceIdeal
import proofs.«139271_j21921513079255_1_alg».proof.Proof.Gen.KernelIdeal.Value
import proofs.«139271_j21921513079255_1_alg».proof.Proof.Gen.ReferenceIdeal.Run
import proofs.«139271_j21921513079255_1_alg».proof.Proof.Gen.ReferenceIdeal.Read
import proofs.«139271_j21921513079255_1_alg».proof.Proof.Gen.Pre_finite_inputs
import proofs.«139271_j21921513079255_1_alg».proof.Proof.Blocks
import proofs.«139271_j21921513079255_1_alg».proof.Proof.RefWhole
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and leaves its arguments unchanged: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the arguments the kernel's result array ends at the whole function of its arguments
    (Proof/Blocks.lean) and the reference's at its last stage, which is the same function (Proof/RefWhole.lean). -/
theorem algebraic : Cert.algebraic_KernelIdeal_ReferenceIdeal := by
  intro m ρ m' ρ' _ hagree
  refine ⟨_, Cert.KernelIdeal.RbfValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v23_eq, Cert.ReferenceIdeal.RefValue.ref_eq_whole,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
